-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x256 .f32) (main_arg10 : FVec F S128 .f32) (main_arg11 : FVec F S10x128 .f32) (main_arg12 : FVec F S10 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg11
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x256 .f32) (main_arg10 : FVec F S128 .f32) (main_arg11 : FVec F S10x128 .f32) (main_arg12 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x256 .f32) (main_arg6 : FVec F S128 .f32) (main_arg7 : FVec F S128x128 .f32) (main_arg8 : FVec F S128 .f32) (main_arg9 : FVec F S128x256 .f32) (main_arg10 : FVec F S128 .f32) (main_arg11 : FVec F S10x128 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S256x128 : Shape := ⟨2, ![256, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 91
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S10x128, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S128x128, .f32⟩
  | .hbm, ⟨18, _⟩ => ⟨S1x128, .f32⟩
  | .hbm, ⟨19, _⟩ => ⟨S50000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S256x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S50000x128, .bf16⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .bf16⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S256x128, .f32⟩
  | .hbm, ⟨57, _⟩ => ⟨S128x128, .f32⟩
  | .hbm, ⟨58, _⟩ => ⟨S128x128, .f32⟩
  | .hbm, ⟨59, _⟩ => ⟨S1x128, .f32⟩
  | .hbm, ⟨60, _⟩ => ⟨S50000x128, .f32⟩
  | .hbm, ⟨61, _⟩ => ⟨S_, .f32⟩
  | .hbm, ⟨62, _⟩ => ⟨S64x128, .f32⟩
  | .hbm, ⟨63, _⟩ => ⟨S50000x1, .i32⟩
  | .hbm, ⟨64, _⟩ => ⟨S64x128, .f32⟩
  | .hbm, ⟨65, _⟩ => ⟨S_, .i32⟩
  | .hbm, ⟨66, _⟩ => ⟨S64, .i32⟩
  | .hbm, ⟨67, _⟩ => ⟨S_, .i32⟩
  | .hbm, ⟨68, _⟩ => ⟨S_, .i32⟩
  | .hbm, ⟨69, _⟩ => ⟨S50000, .i32⟩
  | .hbm, ⟨70, _⟩ => ⟨S50000, .i32⟩
  | .hbm, ⟨71, _⟩ => ⟨S_, .i32⟩
  | .hbm, ⟨72, _⟩ => ⟨S50000, .i32⟩
  | .hbm, ⟨73, _⟩ => ⟨S50000, .i1⟩
  | .hbm, ⟨74, _⟩ => ⟨S_, .i32⟩
  | .hbm, ⟨75, _⟩ => ⟨S50000, .i32⟩
  | .hbm, ⟨76, _⟩ => ⟨S50000, .i32⟩
  | .hbm, ⟨77, _⟩ => ⟨S50000, .i32⟩
  | .hbm, ⟨78, _⟩ => ⟨S50000x1, .i32⟩
  | .hbm, ⟨79, _⟩ => ⟨S_, .i32⟩
  | .hbm, ⟨80, _⟩ => ⟨S50000, .i32⟩
  | .hbm, ⟨81, _⟩ => ⟨S64, .i32⟩
  | .hbm, ⟨82, _⟩ => ⟨S64, .f32⟩
  | .hbm, ⟨83, _⟩ => ⟨S64x1, .f32⟩
  | .hbm, ⟨84, _⟩ => ⟨S64x128, .f32⟩
  | .hbm, ⟨85, _⟩ => ⟨S64x128, .f32⟩
  | .hbm, ⟨86, _⟩ => ⟨S128x10, .f32⟩
  | .hbm, ⟨87, _⟩ => ⟨S64x10, .f32⟩
  | .hbm, ⟨88, _⟩ => ⟨S1x10, .f32⟩
  | .hbm, ⟨89, _⟩ => ⟨S64x10, .f32⟩
  | .hbm, ⟨90, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_c_6 : Ref sig .tc := ⟨.hbm, 67, rfl⟩
abbrev main_call0_v0 : Ref sig .tc := ⟨.hbm, 68, rfl⟩
abbrev main_call0_v1 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S2000x128_S2000x128 : S2000x128.ShapeCasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S_S50000 : S_.BroadcastsInDim S50000 (![] : Fin 0 → Fin S50000.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .bf16 = 32 ∨ (Rect.block (s := S50000x128) S2000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v24_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v24_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S256x128 : Shape := ⟨2, ![256, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S10x128, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S128x128, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x256, .f32⟩
  | .hbm, ⟨36, _⟩ => ⟨S256x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S128x128, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x256, .f32⟩
  | .hbm, ⟨63, _⟩ => ⟨S256x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S64x128, .f32⟩
  | .hbm, ⟨73, _⟩ => ⟨S50000x1, .i32⟩
  | .hbm, ⟨74, _⟩ => ⟨S64x128, .f32⟩
  | .hbm, ⟨75, _⟩ => ⟨S_, .i32⟩
  | .hbm, ⟨76, _⟩ => ⟨S64, .i32⟩
  | .hbm, ⟨77, _⟩ => ⟨S_, .i32⟩
  | .hbm, ⟨78, _⟩ => ⟨S_, .i32⟩
  | .hbm, ⟨79, _⟩ => ⟨S50000, .i32⟩
  | .hbm, ⟨80, _⟩ => ⟨S50000, .i32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S_, .i32⟩
  | .hbm, ⟨90, _⟩ => ⟨S50000, .i32⟩
  | .hbm, ⟨91, _⟩ => ⟨S64, .i32⟩
  | .hbm, ⟨92, _⟩ => ⟨S64, .f32⟩
  | .hbm, ⟨93, _⟩ => ⟨S64x1, .f32⟩
  | .hbm, ⟨94, _⟩ => ⟨S64x128, .f32⟩
  | .hbm, ⟨95, _⟩ => ⟨S64x128, .f32⟩
  | .hbm, ⟨96, _⟩ => ⟨S128x10, .f32⟩
  | .hbm, ⟨97, _⟩ => ⟨S64x10, .f32⟩
  | .hbm, ⟨98, _⟩ => ⟨S1x10, .f32⟩
  | .hbm, ⟨99, _⟩ => ⟨S64x10, .f32⟩
  | .hbm, ⟨100, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_c_6 : Ref sig .tc := ⟨.hbm, 77, rfl⟩
abbrev main_call2_v0 : Ref sig .tc := ⟨.hbm, 78, rfl⟩
abbrev main_call2_v1 : Ref sig .tc := ⟨.hbm, 79, rfl⟩
abbrev main_v52 : Ref sig .tc := ⟨.hbm, 80, rfl⟩
abbrev main_c_7 : Ref sig .tc := ⟨.hbm, 81, rfl⟩
abbrev main_v53 : Ref sig .tc := ⟨.hbm, 82, rfl⟩
abbrev main_v54 : Ref sig .tc := ⟨.hbm, 83, rfl⟩
abbrev main_c_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S_S50000 : S_.BroadcastsInDim S50000 (![] : Fin 0 → Fin S50000.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its result named.

  Every weakly fair execution of the program terminates without a fault; the argument arrays end as launched, and the
  result array ends at the contents the last segment boundary gives it: the launch memory carried through the six
  stretches of host operations and the three kernel launches in program order (`W9`), read at the result's buffer.
  The later modules compute that boundary value.
-/
import proofs.«159168_j72232759984910_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, every argument array as launched. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.KRun

end
-- ==== Proof.Payload.lean ====
/-
  The three kernel bodies' arithmetic, read at one element of a block.

  Every body works on a block of 2000 rows and 128 columns. With the extended reals for floats, rounding to a shorter
  format is the identity and a product into a zero accumulator is the plain sum over the contracted axis, so at row p
  and column q:
    the message body gives        sum_k x[p,k] * w[k,q] + b[0,q];
    the two update bodies give    max (sum_k x[p,k] * wa[k,q] + sum_k a[p,k] * wb[k,q] + b[0,q]) 0;
    the fused body's second store is the message formula applied to the update's own block.
-/
import proofs.«159168_j72232759984910_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The block product's dimension numbers: rows by contraction times contraction by columns. -/
abbrev D := dot_S2000x128_S128x128_S2000x128_1_0_0_1_n_n

theorem lhs0 (i : S2000x128.Idx) (q : D.contr.Idx) : (D.lhsIdx i q 0).val = (i 0).val := by
  unfold DotDims.lhsIdx
  rw [dif_neg (show ¬(0 : Fin S2000x128.rank) ∈ D.lhsBatch by decide),
    dif_pos (show (0 : Fin S2000x128.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- The block product into a zero accumulator at (p, q): the sum over the contracted axis. -/
theorem mm_apply (l : FVec Ideal S2000x128 .bf16) (r : FVec Ideal S128x128 .bf16) (p : Fin 2000) (q : Fin 128) :
    matmul D none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-- The bias row spread over the block's rows, at (p, q): the row's entry q. -/
theorem bias_apply (b : FVec Ideal S1x128 .f32) (h : S1x128.Broadcasts S2000x128) (p : Fin 2000) (q : Fin 128) :
    broadcastTo S2000x128 b h (ix2 p q) = b (ix2 ⟨0, Nat.one_pos⟩ q) :=
  broadcastTo_apply b h (ix2 p q) (ix2 ⟨0, Nat.one_pos⟩ q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The message body at (p, q). -/
theorem k0_pay1_apply (v0 : FVec Ideal S2000x128 .f32) (v2 : FVec Ideal S128x128 .f32) (v6 : FVec Ideal S1x128 .f32)
    (p : Fin 2000) (q : Fin 128) :
    k0_pay1 (F := Ideal) v0 v2 v6 (ix2 p q)
      = (∑ k : Fin 128, v0 (ix2 p k) * v2 (ix2 k q)) + v6 (ix2 ⟨0, Nat.one_pos⟩ q) := by
  unfold k0_pay1
  simp only [shapeCast_self]
  show (matmul D none (truncf .bf16 v0 _) (truncf .bf16 v2 _) (constant (F := Ideal) S2000x128 .f32 0x00000000#32)) (ix2 p q)
      + (broadcastTo S2000x128 v6 _) (ix2 p q) = _
  rw [mm_apply, bias_apply]
  rfl

/-- The layer-1 update body at (p, q). -/
theorem k1_pay1_apply (v0 v2 : FVec Ideal S2000x128 .f32) (v5 v8 : FVec Ideal S128x128 .f32) (v14 : FVec Ideal S1x128 .f32)
    (p : Fin 2000) (q : Fin 128) :
    k1_pay1 (F := Ideal) v0 v2 v5 v8 v14 (ix2 p q)
      = max ((∑ k : Fin 128, v0 (ix2 p k) * v5 (ix2 k q)) + (∑ k : Fin 128, v2 (ix2 p k) * v8 (ix2 k q))
          + v14 (ix2 ⟨0, Nat.one_pos⟩ q)) (Ideal.ofBits .f32 0x00000000#32) := by
  unfold k1_pay1
  simp only [shapeCast_self]
  show max ((matmul D none (truncf .bf16 v0 _) (truncf .bf16 v5 _) (constant (F := Ideal) S2000x128 .f32 0x00000000#32)) (ix2 p q)
      + (matmul D none (truncf .bf16 v2 _) (truncf .bf16 v8 _) (constant (F := Ideal) S2000x128 .f32 0x00000000#32)) (ix2 p q)
      + (broadcastTo S2000x128 v14 _) (ix2 p q)) (Ideal.ofBits .f32 0x00000000#32) = _
  rw [mm_apply, mm_apply, bias_apply]
  rfl

/-- The fused body's second store at (p, q): the message formula over the update's own block. -/
theorem k1_pay2_apply (v0 v2 : FVec Ideal S2000x128 .f32) (v5 v8 : FVec Ideal S128x128 .f32) (v14 : FVec Ideal S1x128 .f32)
    (v22 : FVec Ideal S128x128 .f32) (v26 : FVec Ideal S1x128 .f32) (p : Fin 2000) (q : Fin 128) :
    k1_pay2 (F := Ideal) v0 v2 v5 v8 v14 v22 v26 (ix2 p q)
      = (∑ k : Fin 128, k1_pay1 (F := Ideal) v0 v2 v5 v8 v14 (ix2 p k) * v22 (ix2 k q)) + v26 (ix2 ⟨0, Nat.one_pos⟩ q) := by
  unfold k1_pay2
  simp only [shapeCast_self]
  show (matmul D none (truncf .bf16 (k1_pay1 (F := Ideal) v0 v2 v5 v8 v14) _) (truncf .bf16 v22 _)
        (constant (F := Ideal) S2000x128 .f32 0x00000000#32)) (ix2 p q)
      + (broadcastTo S2000x128 v26 _) (ix2 p q) = _
  rw [mm_apply, bias_apply]
  rfl

/-- The layer-2 update body at (p, q). -/
theorem k2_pay1_apply (v0 v3 : FVec Ideal S2000x128 .f32) (v6 v9 : FVec Ideal S128x128 .f32) (v15 : FVec Ideal S1x128 .f32)
    (p : Fin 2000) (q : Fin 128) :
    k2_pay1 (F := Ideal) v0 v3 v6 v9 v15 (ix2 p q)
      = max ((∑ k : Fin 128, v0 (ix2 p k) * v6 (ix2 k q)) + (∑ k : Fin 128, v3 (ix2 p k) * v9 (ix2 k q))
          + v15 (ix2 ⟨0, Nat.one_pos⟩ q)) (Ideal.ofBits .f32 0x00000000#32) := by
  unfold k2_pay1
  simp only [shapeCast_self]
  show max ((matmul D none (truncf .bf16 v0 _) (truncf .bf16 v6 _) (constant (F := Ideal) S2000x128 .f32 0x00000000#32)) (ix2 p q)
      + (matmul D none (truncf .bf16 v3 _) (truncf .bf16 v9 _) (constant (F := Ideal) S2000x128 .f32 0x00000000#32)) (ix2 p q)
      + (broadcastTo S2000x128 v15 _) (ix2 p q)) (Ideal.ofBits .f32 0x00000000#32) = _
  rw [mm_apply, mm_apply, bias_apply]
  rfl

end Cert.KernelIdeal.Pay

end
-- ==== Proof.Spec.lean ====
/-
  The two row-wise maps of the network, as functions of whole arrays over the extended reals.

  For node features X (50000 rows of 128), a weight matrix W given contraction-major (entry [k, o] multiplies feature k
  into output o) and a bias row B:
    lin X W B        at (n, o) is  sum_k X[n,k] * W[k,o] + B[0,o]                      (the message table);
    upd X A Wa Wb B  at (n, o) is  max (sum_k X[n,k] * Wa[k,o] + sum_k A[n,k] * Wb[k,o] + B[0,o]) 0
                                                                                     (the update of X by the aggregate A).
  Each output row depends on the same row of the inputs only.
-/
import Idealize.ShloMosaic.Lib.ValueIdx
import Idealize.ShloMosaic.PureOps.Ideal

noncomputable section

namespace Mpnn

open Idealize.ShloMosaic Idealize.ShloMosaic.ValueIdx

/-- Node features, or a message table, or an aggregate: one row of 128 per node. -/
abbrev Rows : Shape := ⟨2, ![50000, 128]⟩
/-- A 128 by 128 weight matrix. -/
abbrev Wts : Shape := ⟨2, ![128, 128]⟩
/-- A bias as a single row. -/
abbrev Bias : Shape := ⟨2, ![1, 128]⟩

/-- The affine map applied to every row. -/
def lin (X : Rows.Idx → EReal) (W : Wts.Idx → EReal) (B : Bias.Idx → EReal) : Rows.Idx → EReal := fun i =>
  (∑ k : Fin 128, X (ix2 ⟨(i 0).val, idx2_lt0 i⟩ k) * W (ix2 k ⟨(i 1).val, idx2_lt1 i⟩))
    + B (ix2 ⟨0, Nat.one_pos⟩ ⟨(i 1).val, idx2_lt1 i⟩)

/-- The update of every row: two affine contributions, the bias, then the positive part. -/
def upd (X A : Rows.Idx → EReal) (Wa Wb : Wts.Idx → EReal) (B : Bias.Idx → EReal) : Rows.Idx → EReal := fun i =>
  max ((∑ k : Fin 128, X (ix2 ⟨(i 0).val, idx2_lt0 i⟩ k) * Wa (ix2 k ⟨(i 1).val, idx2_lt1 i⟩))
      + (∑ k : Fin 128, A (ix2 ⟨(i 0).val, idx2_lt0 i⟩ k) * Wb (ix2 k ⟨(i 1).val, idx2_lt1 i⟩))
      + B (ix2 ⟨0, Nat.one_pos⟩ ⟨(i 1).val, idx2_lt1 i⟩))
    (Ideal.ofBits .f32 0x00000000#32)

theorem lin_apply (X : Rows.Idx → EReal) (W : Wts.Idx → EReal) (B : Bias.Idx → EReal) (n : Fin 50000) (o : Fin 128) :
    lin X W B (ix2 n o) = (∑ k : Fin 128, X (ix2 n k) * W (ix2 k o)) + B (ix2 ⟨0, Nat.one_pos⟩ o) := rfl

theorem upd_apply (X A : Rows.Idx → EReal) (Wa Wb : Wts.Idx → EReal) (B : Bias.Idx → EReal) (n : Fin 50000) (o : Fin 128) :
    upd X A Wa Wb B (ix2 n o)
      = max ((∑ k : Fin 128, X (ix2 n k) * Wa (ix2 k o)) + (∑ k : Fin 128, A (ix2 n k) * Wb (ix2 k o))
          + B (ix2 ⟨0, Nat.one_pos⟩ o)) (Ideal.ofBits .f32 0x00000000#32) := rfl

end Mpnn

end
-- ==== Proof.Region0.lean ====
/-
  The message launch as one function of whole arrays.

  The launch walks 25 points; point t reads rows 2000 t .. 2000 t + 1999 of the node features, the whole weight matrix and
  the whole bias row, and writes the same rows of the message table. So, whatever the buffers hold when the launch is
  entered, the message table ends as `lin` of the three input arrays: row n of it is the affine image of row n.
-/
import proofs.«159168_j72232759984910_2_alg».proof.Proof.Gen.KernelIdeal.Frame
import proofs.«159168_j72232759984910_2_alg».proof.Proof.Payload
import proofs.«159168_j72232759984910_2_alg».proof.Proof.Spec
import Idealize.ShloMosaic.Lib.Pipeline.Value

set_option maxRecDepth 16384

noncomputable section

namespace Cert.KernelIdeal.Reg0

open Cert.KernelIdeal Cert.KernelIdeal.Gen Cert.KernelIdeal.Pay Mpnn
open Idealize.ShloMosaic Idealize.ShloMosaic.TcCoe Idealize.ShloMosaic.ValueIdx Idealize.SL.Sem
open Idealize.ShloMosaic.Pipeline (Dat)

/- The contents of the TensorCore's buffers when the launch is entered: any. -/
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: a window of node rows sits at block row t, column block 0;
    a weight or bias window is the whole array at every point. -/
theorem idx_facts : ∀ t : Fin cfg0.N, t.val < 25
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Window 0's block at point t, at (p, k): row t * 2000 + p of its array. -/
theorem blk0 (c : Dev nD) (t : Fin cfg0.N) (p : Fin 2000) (k : Fin 128) (hr : t.val * 2000 + p.val < 50000) :
    iblk0 V c 0 t (ix2 p k) = V c main_arg0 (ix2 ⟨t.val * 2000 + p.val, hr⟩ k) := by
  obtain ⟨e0, e1, e2, e3, e4, e5, e6, e7, e8⟩ := idx_facts t
  show V c main_arg0 (((cfg0.win 0).blk t).view.emb (ix2 p k)) = V c main_arg0 (ix2 ⟨t.val * 2000 + p.val, hr⟩ k)
  refine congrArg (V c main_arg0) ?_
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- Window 1's block is its whole array. -/
theorem blk1 (c : Dev nD) (t : Fin cfg0.N) (k : Fin 128) (q : Fin 128) :
    iblk0 V c 1 t (ix2 k q) = V c main_v4 (ix2 k q) := by
  obtain ⟨e0, e1, e2, e3, e4, e5, e6, e7, e8⟩ := idx_facts t
  show V c main_v4 (((cfg0.win 1).blk t).view.emb (ix2 k q)) = V c main_v4 (ix2 k q)
  refine congrArg (V c main_v4) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Window 2's block is its whole array. -/
theorem blk2 (c : Dev nD) (t : Fin cfg0.N) (q : Fin 128) :
    iblk0 V c 2 t (ix2 ⟨0, Nat.one_pos⟩ q) = V c main_v5 (ix2 ⟨0, Nat.one_pos⟩ q) := by
  obtain ⟨e0, e1, e2, e3, e4, e5, e6, e7, e8⟩ := idx_facts t
  show V c main_v5 (((cfg0.win 2).blk t).view.emb (ix2 ⟨0, Nat.one_pos⟩ q)) = V c main_v5 (ix2 ⟨0, Nat.one_pos⟩ q)
  refine congrArg (V c main_v5) ?_
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Where point t's output block puts its element (p, q): row t * 2000 + p, column q. -/
theorem emb3 (t : Fin cfg0.N) (p : Fin 2000) (q : Fin 128) (hr : t.val * 2000 + p.val < 50000) :
    ((cfg0.win 3).blk t).view.emb (ix2 p q) = (ix2 ⟨t.val * 2000 + p.val, hr⟩ q : S50000x128.Idx) := by
  obtain ⟨e0, e1, e2, e3, e4, e5, e6, e7, e8⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega

/-- WHAT POINT t WRITES BACK is block t of the affine image of the input arrays. -/
theorem flushed3 (c : Dev nD) (t : Fin cfg0.N) :
    (dat0 V c).flushed 3 t
      = ((cfg0.win 3).blk t).view.read (Elt Ideal) (lin (V c main_arg0) (V c main_v4) (V c main_v5)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 25 := (idx_facts t).1
  have hr : t.val * 2000 + p.val < 50000 := by have := p.isLt; omega
  show k0_pay1 (F := Ideal) (iblk0 V c 0 t) (iblk0 V c 1 t) (iblk0 V c 2 t) (ix2 p q)
    = lin (V c main_arg0) (V c main_v4) (V c main_v5) (((cfg0.win 3).blk t).view.emb (ix2 p q))
  rw [emb3 t p q hr, lin_apply]
  refine (k0_pay1_apply _ _ _ p q).trans ?_
  rw [blk2 V c t q]
  refine congrArg (· + _) (Finset.sum_congr rfl fun k _ => ?_)
  rw [blk0 V c t p k hr, blk1 V c t k q]

/-- An index of the output array is in point t's block iff each coordinate is in the block's range on its axis. -/
theorem mem_blk3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v6).slice (win0_3.rect t)).set ↔ _
  rw [View.set_slice_whole, Rect.mem_set_unit]
  exact Iff.rfl

/-- Every row of the output array lies in the block of the point numbered by its row divided by 2000. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨e0, e1, e2, e3, e4, e5, e6, e7, e8⟩ := idx_facts t
  refine ⟨t, flush0_3 t, ?_⟩
  rw [mem_blk3]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE MESSAGE TABLE after the launch: the affine image of the arrays the launch found. -/
theorem final3 (c : Dev nD) :
    (dat0 V c).arrAt 3 cfg0.N = lin (V c main_arg0) (V c main_v4) (V c main_v5) :=
  (dat0 V c).arrAt_eq_of_cover 3 _ (fun t _ => flushed3 V c t) cover3

end Cert.KernelIdeal.Reg0

end
-- ==== Proof.Region1.lean ====
/-
  The fused launch (layer-1 update, layer-2 message) as functions of whole arrays.

  Point t reads rows 2000 t .. 2000 t + 1999 of the node features and of the aggregate, and the whole of three weight
  matrices and two bias rows; it writes the same rows of the updated features and of the next message table. So the
  updated features end as `upd` of the input arrays, and the message table as `lin` of that update: the second store's
  block is computed from the first store's block, and a row of the update depends on that row of the inputs only.
-/
import proofs.«159168_j72232759984910_2_alg».proof.Proof.Gen.KernelIdeal.Frame
import proofs.«159168_j72232759984910_2_alg».proof.Proof.Payload
import proofs.«159168_j72232759984910_2_alg».proof.Proof.Spec
import Idealize.ShloMosaic.Lib.Pipeline.Value

set_option maxRecDepth 16384

noncomputable section

namespace Cert.KernelIdeal.Reg1

open Cert.KernelIdeal Cert.KernelIdeal.Gen Cert.KernelIdeal.Pay Mpnn
open Idealize.ShloMosaic Idealize.ShloMosaic.TcCoe Idealize.ShloMosaic.ValueIdx Idealize.SL.Sem
open Idealize.ShloMosaic.Pipeline (Dat)

/- The contents of the TensorCore's buffers when the launch is entered: any. -/
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: a window of node rows sits at block row t, column block 0;
    a weight or bias window is the whole array at every point. -/
theorem idx_facts : ∀ t : Fin cfg1.N, t.val < 25
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 2) = t.val
    ∧ win1_8.index t (1 : Fin 2) = 0 :=
  (by decide +kernel : ∀ t : Fin grid1.N, _)

/-- Window 0's block at point t, at (p, k): row t * 2000 + p of its array. -/
theorem blk0 (c : Dev nD) (t : Fin cfg1.N) (p : Fin 2000) (k : Fin 128) (hr : t.val * 2000 + p.val < 50000) :
    iblk1 V c 0 t (ix2 p k) = V c main_arg0 (ix2 ⟨t.val * 2000 + p.val, hr⟩ k) := by
  obtain ⟨e0, e1, e2, e3, e4, e5, e6, e7, e8, e9, e10, e11, e12, e13, e14, e15, e16, e17, e18⟩ := idx_facts t
  show V c main_arg0 (((cfg1.win 0).blk t).view.emb (ix2 p k)) = V c main_arg0 (ix2 ⟨t.val * 2000 + p.val, hr⟩ k)
  refine congrArg (V c main_arg0) ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- Window 1's block at point t, at (p, k): row t * 2000 + p of its array. -/
theorem blk1 (c : Dev nD) (t : Fin cfg1.N) (p : Fin 2000) (k : Fin 128) (hr : t.val * 2000 + p.val < 50000) :
    iblk1 V c 1 t (ix2 p k) = V c main_v17 (ix2 ⟨t.val * 2000 + p.val, hr⟩ k) := by
  obtain ⟨e0, e1, e2, e3, e4, e5, e6, e7, e8, e9, e10, e11, e12, e13, e14, e15, e16, e17, e18⟩ := idx_facts t
  show V c main_v17 (((cfg1.win 1).blk t).view.emb (ix2 p k)) = V c main_v17 (ix2 ⟨t.val * 2000 + p.val, hr⟩ k)
  refine congrArg (V c main_v17) ?_
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

/-- Window 2's block is its whole array. -/
theorem blk2 (c : Dev nD) (t : Fin cfg1.N) (k : Fin 128) (q : Fin 128) :
    iblk1 V c 2 t (ix2 k q) = V c main_v19 (ix2 k q) := by
  obtain ⟨e0, e1, e2, e3, e4, e5, e6, e7, e8, e9, e10, e11, e12, e13, e14, e15, e16, e17, e18⟩ := idx_facts t
  show V c main_v19 (((cfg1.win 2).blk t).view.emb (ix2 k q)) = V c main_v19 (ix2 k q)
  refine congrArg (V c main_v19) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Window 3's block is its whole array. -/
theorem blk3 (c : Dev nD) (t : Fin cfg1.N) (k : Fin 128) (q : Fin 128) :
    iblk1 V c 3 t (ix2 k q) = V c main_v20 (ix2 k q) := by
  obtain ⟨e0, e1, e2, e3, e4, e5, e6, e7, e8, e9, e10, e11, e12, e13, e14, e15, e16, e17, e18⟩ := idx_facts t
  show V c main_v20 (((cfg1.win 3).blk t).view.emb (ix2 k q)) = V c main_v20 (ix2 k q)
  refine congrArg (V c main_v20) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Window 4's block is its whole array. -/
theorem blk4 (c : Dev nD) (t : Fin cfg1.N) (q : Fin 128) :
    iblk1 V c 4 t (ix2 ⟨0, Nat.one_pos⟩ q) = V c main_v22 (ix2 ⟨0, Nat.one_pos⟩ q) := by
  obtain ⟨e0, e1, e2, e3, e4, e5, e6, e7, e8, e9, e10, e11, e12, e13, e14, e15, e16, e17, e18⟩ := idx_facts t
  show V c main_v22 (((cfg1.win 4).blk t).view.emb (ix2 ⟨0, Nat.one_pos⟩ q)) = V c main_v22 (ix2 ⟨0, Nat.one_pos⟩ q)
  refine congrArg (V c main_v22) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- Window 5's block is its whole array. -/
theorem blk5 (c : Dev nD) (t : Fin cfg1.N) (k : Fin 128) (q : Fin 128) :
    iblk1 V c 5 t (ix2 k q) = V c main_v21 (ix2 k q) := by
  obtain ⟨e0, e1, e2, e3, e4, e5, e6, e7, e8, e9, e10, e11, e12, e13, e14, e15, e16, e17, e18⟩ := idx_facts t
  show V c main_v21 (((cfg1.win 5).blk t).view.emb (ix2 k q)) = V c main_v21 (ix2 k q)
  refine congrArg (V c main_v21) ?_
  funext a; apply Fin.ext
  match a with
  | ⟨0, _⟩ => show win1_5.index t (0 : Fin 2) * 128 + 1 * k.val = k.val; omega
  | ⟨1, _⟩ => show win1_5.index t (1 : Fin 2) * 128 + 1 * q.val = q.val; omega

/-- Window 6's block is its whole array. -/
theorem blk6 (c : Dev nD) (t : Fin cfg1.N) (q : Fin 128) :
    iblk1 V c 6 t (ix2 ⟨0, Nat.one_pos⟩ q) = V c main_v23 (ix2 ⟨0, Nat.one_pos⟩ q) := by
  obtain ⟨e0, e1, e2, e3, e4, e5, e6, e7, e8, e9, e10, e11, e12, e13, e14, e15, e16, e17, e18⟩ := idx_facts t
  show V c main_v23 (((cfg1.win 6).blk t).view.emb (ix2 ⟨0, Nat.one_pos⟩ q)) = V c main_v23 (ix2 ⟨0, Nat.one_pos⟩ q)
  refine congrArg (V c main_v23) ?_
  funext a; apply Fin.ext
  match a with
  | ⟨0, _⟩ => show win1_6.index t (0 : Fin 2) * 1 + 1 * 0 = 0; omega
  | ⟨1, _⟩ => show win1_6.index t (1 : Fin 2) * 128 + 1 * q.val = q.val; omega

/-- Where point t's output block 7 puts its element (p, q): row t * 2000 + p, column q. -/
theorem emb7 (t : Fin cfg1.N) (p : Fin 2000) (q : Fin 128) (hr : t.val * 2000 + p.val < 50000) :
    ((cfg1.win 7).blk t).view.emb (ix2 p q) = (ix2 ⟨t.val * 2000 + p.val, hr⟩ q : S50000x128.Idx) := by
  obtain ⟨e0, e1, e2, e3, e4, e5, e6, e7, e8, e9, e10, e11, e12, e13, e14, e15, e16, e17, e18⟩ := idx_facts t
  funext a; apply Fin.ext
  match a with
  | ⟨0, _⟩ => show win1_7.index t (0 : Fin 2) * 2000 + 1 * p.val = t.val * 2000 + p.val; omega
  | ⟨1, _⟩ => show win1_7.index t (1 : Fin 2) * 128 + 1 * q.val = q.val; omega

/-- Where point t's output block 8 puts its element (p, q): row t * 2000 + p, column q. -/
theorem emb8 (t : Fin cfg1.N) (p : Fin 2000) (q : Fin 128) (hr : t.val * 2000 + p.val < 50000) :
    ((cfg1.win 8).blk t).view.emb (ix2 p q) = (ix2 ⟨t.val * 2000 + p.val, hr⟩ q : S50000x128.Idx) := by
  obtain ⟨e0, e1, e2, e3, e4, e5, e6, e7, e8, e9, e10, e11, e12, e13, e14, e15, e16, e17, e18⟩ := idx_facts t
  funext a; apply Fin.ext
  match a with
  | ⟨0, _⟩ => show win1_8.index t (0 : Fin 2) * 2000 + 1 * p.val = t.val * 2000 + p.val; omega
  | ⟨1, _⟩ => show win1_8.index t (1 : Fin 2) * 128 + 1 * q.val = q.val; omega

/-- The update body on point t's blocks, at (p, q): the update of the whole arrays at row t * 2000 + p. -/
theorem pay1_blk (c : Dev nD) (t : Fin cfg1.N) (p : Fin 2000) (q : Fin 128) (hr : t.val * 2000 + p.val < 50000) :
    k1_pay1 (F := Ideal) (iblk1 V c 0 t) (iblk1 V c 1 t) (iblk1 V c 2 t) (iblk1 V c 3 t) (iblk1 V c 4 t) (ix2 p q)
      = upd (V c main_arg0) (V c main_v17) (V c main_v19) (V c main_v20) (V c main_v22) (ix2 ⟨t.val * 2000 + p.val, hr⟩ q) := by
  rw [upd_apply]
  refine (k1_pay1_apply _ _ _ _ _ p q).trans ?_
  rw [blk4 V c t q]
  refine congrArg (fun z => max (z + _) _) ?_
  refine congrArg₂ (· + ·) (Finset.sum_congr rfl fun k _ => ?_) (Finset.sum_congr rfl fun k _ => ?_)
  · rw [blk0 V c t p k hr, blk2 V c t k q]
  · rw [blk1 V c t p k hr, blk3 V c t k q]

/-- WHAT POINT t WRITES BACK to the updated features is block t of the update of the input arrays. -/
theorem flushed7 (c : Dev nD) (t : Fin cfg1.N) :
    (dat1 V c).flushed 7 t = ((cfg1.win 7).blk t).view.read (Elt Ideal)
      (upd (V c main_arg0) (V c main_v17) (V c main_v19) (V c main_v20) (V c main_v22)) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 25 := (idx_facts t).1
  have hr : t.val * 2000 + p.val < 50000 := by have := p.isLt; omega
  show k1_pay1 (F := Ideal) (iblk1 V c 0 t) (iblk1 V c 1 t) (iblk1 V c 2 t) (iblk1 V c 3 t) (iblk1 V c 4 t) (ix2 p q)
    = upd (V c main_arg0) (V c main_v17) (V c main_v19) (V c main_v20) (V c main_v22) (((cfg1.win 7).blk t).view.emb (ix2 p q))
  rw [emb7 t p q hr]
  exact pay1_blk V c t p q hr

/-- WHAT POINT t WRITES BACK to the message table is block t of the affine image of the update. -/
theorem flushed8 (c : Dev nD) (t : Fin cfg1.N) :
    (dat1 V c).flushed 8 t = ((cfg1.win 8).blk t).view.read (Elt Ideal)
      (lin (upd (V c main_arg0) (V c main_v17) (V c main_v19) (V c main_v20) (V c main_v22)) (V c main_v21) (V c main_v23)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 25 := (idx_facts t).1
  have hr : t.val * 2000 + p.val < 50000 := by have := p.isLt; omega
  show k1_pay2 (F := Ideal) (iblk1 V c 0 t) (iblk1 V c 1 t) (iblk1 V c 2 t) (iblk1 V c 3 t) (iblk1 V c 4 t) (iblk1 V c 5 t)
      (iblk1 V c 6 t) (ix2 p q)
    = lin (upd (V c main_arg0) (V c main_v17) (V c main_v19) (V c main_v20) (V c main_v22)) (V c main_v21) (V c main_v23)
        (((cfg1.win 8).blk t).view.emb (ix2 p q))
  rw [emb8 t p q hr, lin_apply]
  refine (k1_pay2_apply _ _ _ _ _ _ _ p q).trans ?_
  rw [blk6 V c t q]
  refine congrArg (· + _) (Finset.sum_congr rfl fun k _ => ?_)
  rw [pay1_blk V c t p k hr, blk5 V c t k q]

/-- An index of the output array is in point t's block iff each coordinate is in the block's range on its axis. -/
theorem mem_blk7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v24_0).slice (win1_7.rect t)).set ↔ _
  rw [View.set_slice_whole, Rect.mem_set_unit]
  exact Iff.rfl

/-- Every row of the output array lies in the block of the point numbered by its row divided by 2000. -/
theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨e0, e1, e2, e3, e4, e5, e6, e7, e8, e9, e10, e11, e12, e13, e14, e15, e16, e17, e18⟩ := idx_facts t
  refine ⟨t, flush1_7 t, ?_⟩
  rw [mem_blk7]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 128 ≤ (i 1).val ∧ (i 1).val < win1_7.index t (1 : Fin 2) * 128 + 128
    omega

/-- An index of the output array is in point t's block iff each coordinate is in the block's range on its axis. -/
theorem mem_blk8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v24_1).slice (win1_8.rect t)).set ↔ _
  rw [View.set_slice_whole, Rect.mem_set_unit]
  exact Iff.rfl

/-- Every row of the output array lies in the block of the point numbered by its row divided by 2000. -/
theorem cover8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨e0, e1, e2, e3, e4, e5, e6, e7, e8, e9, e10, e11, e12, e13, e14, e15, e16, e17, e18⟩ := idx_facts t
  refine ⟨t, flush1_8 t, ?_⟩
  rw [mem_blk8]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 128 ≤ (i 1).val ∧ (i 1).val < win1_8.index t (1 : Fin 2) * 128 + 128
    omega

/-- THE UPDATED FEATURES after the launch. -/
theorem final7 (c : Dev nD) :
    (dat1 V c).arrAt 7 cfg1.N = upd (V c main_arg0) (V c main_v17) (V c main_v19) (V c main_v20) (V c main_v22) :=
  (dat1 V c).arrAt_eq_of_cover 7 _ (fun t _ => flushed7 V c t) cover7

/-- THE NEXT MESSAGE TABLE after the launch. -/
theorem final8 (c : Dev nD) :
    (dat1 V c).arrAt 8 cfg1.N
      = lin (upd (V c main_arg0) (V c main_v17) (V c main_v19) (V c main_v20) (V c main_v22)) (V c main_v21) (V c main_v23) :=
  (dat1 V c).arrAt_eq_of_cover 8 _ (fun t _ => flushed8 V c t) cover8

end Cert.KernelIdeal.Reg1

end
-- ==== Proof.Region2.lean ====
/-
  The layer-2 update launch as one function of whole arrays.

  Point t reads rows 2000 t .. 2000 t + 1999 of the layer-1 features and of the second aggregate, and the whole of two
  weight matrices and a bias row; it writes the same rows of the layer-2 features, which therefore end as `upd` of the
  input arrays.
-/
import proofs.«159168_j72232759984910_2_alg».proof.Proof.Gen.KernelIdeal.Frame
import proofs.«159168_j72232759984910_2_alg».proof.Proof.Payload
import proofs.«159168_j72232759984910_2_alg».proof.Proof.Spec
import Idealize.ShloMosaic.Lib.Pipeline.Value

set_option maxRecDepth 16384

noncomputable section

namespace Cert.KernelIdeal.Reg2

open Cert.KernelIdeal Cert.KernelIdeal.Gen Cert.KernelIdeal.Pay Mpnn
open Idealize.ShloMosaic Idealize.ShloMosaic.TcCoe Idealize.ShloMosaic.ValueIdx Idealize.SL.Sem
open Idealize.ShloMosaic.Pipeline (Dat)

/- The contents of the TensorCore's buffers when the launch is entered: any. -/
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: a window of node rows sits at block row t, column block 0;
    a weight or bias window is the whole array at every point. -/
theorem idx_facts : ∀ t : Fin cfg2.N, t.val < 25
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Window 0's block at point t, at (p, k): row t * 2000 + p of its array. -/
theorem blk0 (c : Dev nD) (t : Fin cfg2.N) (p : Fin 2000) (k : Fin 128) (hr : t.val * 2000 + p.val < 50000) :
    iblk2 V c 0 t (ix2 p k) = V c main_v24_0 (ix2 ⟨t.val * 2000 + p.val, hr⟩ k) := by
  obtain ⟨e0, e1, e2, e3, e4, e5, e6, e7, e8, e9, e10, e11, e12⟩ := idx_facts t
  show V c main_v24_0 (((cfg2.win 0).blk t).view.emb (ix2 p k)) = V c main_v24_0 (ix2 ⟨t.val * 2000 + p.val, hr⟩ k)
  refine congrArg (V c main_v24_0) ?_
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

/-- Window 1's block at point t, at (p, k): row t * 2000 + p of its array. -/
theorem blk1 (c : Dev nD) (t : Fin cfg2.N) (p : Fin 2000) (k : Fin 128) (hr : t.val * 2000 + p.val < 50000) :
    iblk2 V c 1 t (ix2 p k) = V c main_v35 (ix2 ⟨t.val * 2000 + p.val, hr⟩ k) := by
  obtain ⟨e0, e1, e2, e3, e4, e5, e6, e7, e8, e9, e10, e11, e12⟩ := idx_facts t
  show V c main_v35 (((cfg2.win 1).blk t).view.emb (ix2 p k)) = V c main_v35 (ix2 ⟨t.val * 2000 + p.val, hr⟩ k)
  refine congrArg (V c main_v35) ?_
  funext a; apply Fin.ext
  match a with
  | ⟨0, _⟩ => show win2_1.index t (0 : Fin 2) * 2000 + 1 * p.val = t.val * 2000 + p.val; omega
  | ⟨1, _⟩ => show win2_1.index t (1 : Fin 2) * 128 + 1 * k.val = k.val; omega

/-- Window 2's block is its whole array. -/
theorem blk2 (c : Dev nD) (t : Fin cfg2.N) (k : Fin 128) (q : Fin 128) :
    iblk2 V c 2 t (ix2 k q) = V c main_v37 (ix2 k q) := by
  obtain ⟨e0, e1, e2, e3, e4, e5, e6, e7, e8, e9, e10, e11, e12⟩ := idx_facts t
  show V c main_v37 (((cfg2.win 2).blk t).view.emb (ix2 k q)) = V c main_v37 (ix2 k q)
  refine congrArg (V c main_v37) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- Window 3's block is its whole array. -/
theorem blk3 (c : Dev nD) (t : Fin cfg2.N) (k : Fin 128) (q : Fin 128) :
    iblk2 V c 3 t (ix2 k q) = V c main_v38 (ix2 k q) := by
  obtain ⟨e0, e1, e2, e3, e4, e5, e6, e7, e8, e9, e10, e11, e12⟩ := idx_facts t
  show V c main_v38 (((cfg2.win 3).blk t).view.emb (ix2 k q)) = V c main_v38 (ix2 k q)
  refine congrArg (V c main_v38) ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- Window 4's block is its whole array. -/
theorem blk4 (c : Dev nD) (t : Fin cfg2.N) (q : Fin 128) :
    iblk2 V c 4 t (ix2 ⟨0, Nat.one_pos⟩ q) = V c main_v39 (ix2 ⟨0, Nat.one_pos⟩ q) := by
  obtain ⟨e0, e1, e2, e3, e4, e5, e6, e7, e8, e9, e10, e11, e12⟩ := idx_facts t
  show V c main_v39 (((cfg2.win 4).blk t).view.emb (ix2 ⟨0, Nat.one_pos⟩ q)) = V c main_v39 (ix2 ⟨0, Nat.one_pos⟩ q)
  refine congrArg (V c main_v39) ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- Where point t's output block 5 puts its element (p, q): row t * 2000 + p, column q. -/
theorem emb5 (t : Fin cfg2.N) (p : Fin 2000) (q : Fin 128) (hr : t.val * 2000 + p.val < 50000) :
    ((cfg2.win 5).blk t).view.emb (ix2 p q) = (ix2 ⟨t.val * 2000 + p.val, hr⟩ q : S50000x128.Idx) := by
  obtain ⟨e0, e1, e2, e3, e4, e5, e6, e7, e8, e9, e10, e11, e12⟩ := idx_facts t
  funext a; apply Fin.ext
  match a with
  | ⟨0, _⟩ => show win2_5.index t (0 : Fin 2) * 2000 + 1 * p.val = t.val * 2000 + p.val; omega
  | ⟨1, _⟩ => show win2_5.index t (1 : Fin 2) * 128 + 1 * q.val = q.val; omega

/-- WHAT POINT t WRITES BACK is block t of the update of the input arrays. -/
theorem flushed5 (c : Dev nD) (t : Fin cfg2.N) :
    (dat2 V c).flushed 5 t = ((cfg2.win 5).blk t).view.read (Elt Ideal)
      (upd (V c main_v24_0) (V c main_v35) (V c main_v37) (V c main_v38) (V c main_v39)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 25 := (idx_facts t).1
  have hr : t.val * 2000 + p.val < 50000 := by have := p.isLt; omega
  show k2_pay1 (F := Ideal) (iblk2 V c 0 t) (iblk2 V c 1 t) (iblk2 V c 2 t) (iblk2 V c 3 t) (iblk2 V c 4 t) (ix2 p q)
    = upd (V c main_v24_0) (V c main_v35) (V c main_v37) (V c main_v38) (V c main_v39) (((cfg2.win 5).blk t).view.emb (ix2 p q))
  rw [emb5 t p q hr, upd_apply]
  refine (k2_pay1_apply _ _ _ _ _ p q).trans ?_
  rw [blk4 V c t q]
  refine congrArg (fun z => max (z + _) _) ?_
  refine congrArg₂ (· + ·) (Finset.sum_congr rfl fun k _ => ?_) (Finset.sum_congr rfl fun k _ => ?_)
  · rw [blk0 V c t p k hr, blk2 V c t k q]
  · rw [blk1 V c t p k hr, blk3 V c t k q]

/-- An index of the output array is in point t's block iff each coordinate is in the block's range on its axis. -/
theorem mem_blk5 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v40).slice (win2_5.rect t)).set ↔ _
  rw [View.set_slice_whole, Rect.mem_set_unit]
  exact Iff.rfl

/-- Every row of the output array lies in the block of the point numbered by its row divided by 2000. -/
theorem cover5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have ht : t.val = (i 0).val / 2000 := rfl
  obtain ⟨e0, e1, e2, e3, e4, e5, e6, e7, e8, e9, e10, e11, e12⟩ := idx_facts t
  refine ⟨t, flush2_5 t, ?_⟩
  rw [mem_blk5]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- THE LAYER-2 FEATURES after the launch. -/
theorem final5 (c : Dev nD) :
    (dat2 V c).arrAt 5 cfg2.N = upd (V c main_v24_0) (V c main_v35) (V c main_v37) (V c main_v38) (V c main_v39) :=
  (dat2 V c).arrAt_eq_of_cover 5 _ (fun t _ => flushed5 V c t) cover5

end Cert.KernelIdeal.Reg2

end
-- ==== Proof.LibRowGather.lean ====
/-
  A gather of whole ROWS read at an index.

  An operand of N rows and D columns is gathered at E start indices, one per result row (offset axis the columns,
  collapsed axis the rows, the start index a single component naming a row): result element (e, j) is the operand's
  element (r e, j), where the row r e is the e-th start index read as a signed integer and clamped into [0, N - 1].
  The row depends on the result's row alone and the column is kept, so such a gather commutes with every map that acts
  on the rows of the operand one at a time.
-/
import Idealize.ShloMosaic.Lib.ValueIdx

noncomputable section

namespace RowGather

open Idealize.ShloMosaic Idealize.ShloMosaic.ValueIdx

variable {α : Type}

/-- The dimension numbers of a gather of whole rows: operand [N, D], start indices [E, 1], result [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Where result row e finds its start index: position [e, 0] of the start indices. -/
abbrev selIdx {E : Nat} (e : Fin E) : (⟨2, ![E, 1]⟩ : Shape).Idx := ix2 e ⟨0, Nat.one_pos⟩

/-- The operand row that result row e reads: its start index, signed, clamped into [0, N - 1]. -/
def rowOf {N E w : Nat} (hN : 0 < N) (idx : IVec ⟨2, ![E, 1]⟩ w) (e : Fin E) : Fin N :=
  ⟨min (idx (selIdx e)).toInt.toNat (N - 1), by omega⟩

section
variable {N D E w : Nat} (hN : 0 < N)
  (wf : GatherDims.WF ⟨2, ![N, D]⟩ ⟨2, ![E, 1]⟩ ⟨2, ![E, D]⟩ [1] [0] [] [0] [] 1 ![1, D])
  (idx : IVec ⟨2, ![E, 1]⟩ w) (y : (⟨2, ![E, D]⟩ : Shape).Idx)

/-- On the row axis: the clamped start index of the result's row; no batching, no offset. -/
theorem operandIdx_row0 :
    ((rowDims N D E wf).operandIdx y idx (0 : Fin 2)).val = (rowOf hN idx ⟨(y 0).val, idx2_lt0 y⟩).val := by
  show (rowDims N D E wf).start y idx (0 : Fin 2) + (rowDims N D E wf).batchCoord y (0 : Fin 2)
    + (rowDims N D E wf).offCoord y (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D E wf).startIndexMap from List.mem_singleton.mpr rfl)]
  have hsi : (rowDims N D E wf).siIdx y ⟨List.idxOf (0 : Fin 2) (rowDims N D E wf).startIndexMap,
      List.idxOf_lt_length_iff.2 (List.mem_singleton.mpr rfl)⟩ = selIdx ⟨(y 0).val, idx2_lt0 y⟩ := by
    funext b; refine Fin.ext ?_
    match b with
    | ⟨0, _⟩ => rfl
    | ⟨1, _⟩ => rfl
  rw [hsi]
  rfl

/-- On the column axis: the result's column; the start there is 0. -/
theorem operandIdx_row1 :
    ((rowDims N D E wf).operandIdx y idx (1 : Fin 2)).val = (y 1).val := by
  show (rowDims N D E wf).start y idx (1 : Fin 2) + (rowDims N D E wf).batchCoord y (1 : Fin 2)
    + (rowDims N D E wf).offCoord y (1 : Fin 2) = _
  rw [GatherDims.batchCoord_eq_zero _ _ _ List.not_mem_nil]
  have hs : (rowDims N D E wf).start y idx (1 : Fin 2) = 0 := by
    unfold GatherDims.start
    rw [dif_neg (show ¬ (1 : Fin 2) ∈ ([0] : List (Fin 2)) by decide)]
  have ho : (rowDims N D E wf).offCoord y (1 : Fin 2) = (y 1).val := by
    unfold GatherDims.offCoord
    rw [dif_pos ((GatherDims.mem_sKept _ _).mpr
      ⟨(show ¬ (1 : Fin 2) ∈ ([0] : List (Fin 2)) by decide), List.not_mem_nil⟩)]
    rfl
  rw [hs, ho]; omega

/-- The operand index of result index (e, j) is (rowOf e, j). -/
theorem operandIdx_row :
    (rowDims N D E wf).operandIdx y idx
      = ix2 (rowOf hN idx ⟨(y 0).val, idx2_lt0 y⟩) (⟨(y 1).val, idx2_lt1 y⟩ : Fin D) := by
  funext a
  refine Fin.ext ?_
  match a with
  | ⟨0, _⟩ => exact operandIdx_row0 hN wf idx y
  | ⟨1, _⟩ => exact operandIdx_row1 wf idx y

/-- THE GATHER OF ROWS READ AT AN INDEX. -/
theorem gather_row_apply (x : (⟨2, ![N, D]⟩ : Shape).Idx → α) :
    Host.gather (rowDims N D E wf) x idx y
      = x (ix2 (rowOf hN idx ⟨(y 0).val, idx2_lt0 y⟩) (⟨(y 1).val, idx2_lt1 y⟩ : Fin D)) :=
  congrArg x (operandIdx_row hN wf idx y)

end

end RowGather

end
-- ==== Proof.BridgeMsg.lean ====
/-
  Gathering the message table is computing the messages of the gathered features.

  The kernel forms the message table of all 50000 nodes (the affine image of the features, row by row) and then gathers
  its rows at the edges' source nodes; the reference gathers the feature rows first and applies the affine map to the
  800000 gathered rows. A gather of whole rows reads, at edge e and column j, row r(e) of its operand at column j, where
  r(e) depends only on the e-th start index; the affine map acts on each row alone. So both give, at (e, o),
      sum_k X[r(e), k] * W[k, o] + b[o],
  whatever the start indices are (out-of-range ones are clamped alike on both sides). Widening the gathered table from
  the shorter float format is the identity on the extended reals.
-/
import proofs.«159168_j72232759984910_2_alg».proof.Proof.Gen.KernelIdeal
import proofs.«159168_j72232759984910_2_alg».proof.Proof.Gen.ReferenceIdeal.Read
import proofs.«159168_j72232759984910_2_alg».proof.Proof.Spec
import proofs.«159168_j72232759984910_2_alg».proof.Proof.LibRowGather
import Idealize.ShloMosaic.Lib.Pipeline.Value

noncomputable section

namespace Mpnn.Msg

open Mpnn Idealize.ShloMosaic Idealize.ShloMosaic.ValueIdx
open Cert.ReferenceIdeal Cert.ReferenceIdeal.Read

/-- The reference's product of the gathered rows with the weights, read at (e, o): the sum over the feature axis. -/
theorem dot_edges_apply (L : FVec Ideal S800000x128 .f32) (T : FVec Ideal S128x128 .f32) (i : S800000x128.Idx) :
    Host.dotGeneral dot_S800000x128_S128x128_S800000x128_1_0_0_1_n_n none L T i
      = ∑ k : Fin 128, L (lidx_main_v12 i k) * T (ridx_main_v12 i k) := by
  simp only [Host.dotGeneral]
  rw [Ideal.dotGeneral_apply, ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx i
      ((contrEquiv1 dot_S800000x128_S128x128_S800000x128_1_0_0_1_n_n 128 rfl rfl).symm k) = lidx_main_v12 i k :=
    funext fun a => Fin.ext (by
      match a with
      | ⟨0, _⟩ => exact lhs_main_v12_0 _ _
      | ⟨1, _⟩ => exact (lhs_main_v12_1 _ _).trans hk)
  have er : dot_S800000x128_S128x128_S800000x128_1_0_0_1_n_n.rhsIdx i
      ((contrEquiv1 dot_S800000x128_S128x128_S800000x128_1_0_0_1_n_n 128 rfl rfl).symm k) = ridx_main_v12 i k :=
    funext fun a => Fin.ext (by
      match a with
      | ⟨0, _⟩ => exact (rhs_main_v12_0 _ _).trans hk
      | ⟨1, _⟩ => exact rhs_main_v12_1 _ _)
  rw [el, er]

/-- A bias reshaped to a single row, read at (0, o): entry o. -/
theorem biasRow_apply (b : (⟨1, ![128]⟩ : Shape).Idx → EReal) (h : (⟨1, ![128]⟩ : Shape).ShapeCasts ⟨2, ![1, 128]⟩) (o : Fin 128) :
    shapeCast (⟨2, ![1, 128]⟩ : Shape) b h (ix2 ⟨0, Nat.one_pos⟩ o) = b (ix1 o) := by
  refine (shapeCast_addUnit_apply ![128] b h (ix2 ⟨0, Nat.one_pos⟩ o)).trans (congrArg b ?_)
  funext a
  match a with
  | ⟨0, _⟩ => rfl

/-- The reference's bias spread over the edges, read at (e, o): entry o. -/
theorem biasEdges_apply (b : (⟨S128, .f32⟩ : BufTy).Contents (Elt Ideal)) (e : Fin 800000) (o : Fin 128) :
    val_main_v14 (F := Ideal) b (ix2 e o) = b (ix1 o) := by
  rw [val_main_v14_apply, val_main_v13_apply]
  refine congrArg b ?_
  funext a
  match a with
  | ⟨0, _⟩ => rfl

/-- THE MESSAGES: the gathered message table is the affine image of the gathered feature rows. -/
theorem gathered_table_eq (X : FVec Ideal S50000x128 .f32) (T : FVec Ideal S128x128 .f32)
    (b : (⟨S128, .f32⟩ : BufTy).Contents (Elt Ideal))
    (hb : (⟨1, ![128]⟩ : Shape).ShapeCasts ⟨2, ![1, 128]⟩) (hx : FTy.bits .bf16 < FTy.bits .f32)
    (idx : IVec S800000x1 32) :
    (extf .f32 (Host.gather Cert.KernelIdeal.gather_S50000x128_S800000x1_S800000x128_1_0_n_n_0_1_1128
        (lin X T (shapeCast (⟨2, ![1, 128]⟩ : Shape) b hb) : FVec Ideal Cert.KernelIdeal.S50000x128 .bf16) idx) hx
      : FVec Ideal S800000x128 .f32)
      = addf (Host.dotGeneral dot_S800000x128_S128x128_S800000x128_1_0_0_1_n_n none
          (Host.gather gather_S50000x128_S800000x1_S800000x128_1_0_n_n_0_1_1128 X idx : FVec Ideal S800000x128 .f32) T)
        (val_main_v14 (F := Ideal) b) := by
  funext i
  obtain ⟨e, o, rfl⟩ : ∃ (e : Fin 800000) (o : Fin 128), i = ix2 e o := ⟨i 0, i 1, eq_ix2 i⟩
  have hN : 0 < 50000 := by decide
  rw [extf_apply, addf_apply, dot_edges_apply, biasEdges_apply]
  rw [show (Host.gather Cert.KernelIdeal.gather_S50000x128_S800000x1_S800000x128_1_0_n_n_0_1_1128
        (lin X T (shapeCast (⟨2, ![1, 128]⟩ : Shape) b hb) : FVec Ideal Cert.KernelIdeal.S50000x128 .bf16) idx) (ix2 e o)
      = lin X T (shapeCast (⟨2, ![1, 128]⟩ : Shape) b hb) (ix2 (RowGather.rowOf hN idx e) o) from
    RowGather.gather_row_apply hN
      Cert.KernelIdeal.gather_S50000x128_S800000x1_S800000x128_1_0_n_n_0_1_1128.wf idx (ix2 e o) _]
  rw [lin_apply, biasRow_apply]
  refine congrArg (fun z => z + b (ix1 o)) (Finset.sum_congr rfl fun k _ => ?_)
  have hl : lidx_main_v12 (ix2 e o) k = ix2 e k := funext fun a => by
    match a with
    | ⟨0, _⟩ => rfl
    | ⟨1, _⟩ => rfl
  have hr : ridx_main_v12 (ix2 e o) k = ix2 k o := funext fun a => by
    match a with
    | ⟨0, _⟩ => rfl
    | ⟨1, _⟩ => rfl
  rw [hl, hr]
  rw [show (Host.gather gather_S50000x128_S800000x1_S800000x128_1_0_n_n_0_1_1128 X idx : FVec Ideal S800000x128 .f32) (ix2 e k)
      = X (ix2 (RowGather.rowOf hN idx e) k) from
    RowGather.gather_row_apply hN gather_S50000x128_S800000x1_S800000x128_1_0_n_n_0_1_1128.wf idx (ix2 e k) X]

end Mpnn.Msg

end
-- ==== Proof.BridgeUpd.lean ====
/-
  The update through two half-products is the update through the concatenated features.

  The reference joins the features X and the aggregate A side by side into 256 columns and multiplies by the whole
  transposed update weights T (256 by 128); the kernel multiplies X by the first 128 rows of T and A by the last 128 rows
  and adds. A sum over 256 terms is the sum over its first 128 plus the sum over its last 128 — only the grouping of an
  addition changes, which holds for extended reals with no finiteness assumption — so both are
      max (sum_{k<128} X[n,k] * T[k,o] + sum_{k<128} A[n,k] * T[128+k,o] + b[o]) 0.
-/
import proofs.«159168_j72232759984910_2_alg».proof.Proof.Gen.ReferenceIdeal.Read
import proofs.«159168_j72232759984910_2_alg».proof.Proof.Spec
import proofs.«159168_j72232759984910_2_alg».proof.Proof.BridgeMsg
import Idealize.ShloMosaic.Lib.Pipeline.Value
import Idealize.ShloMosaic.Lib.ValueLayout

noncomputable section

namespace Mpnn.Upd

open Mpnn Idealize.ShloMosaic Idealize.ShloMosaic.ValueIdx
open Cert.ReferenceIdeal Cert.ReferenceIdeal.Read Cert.ReferenceIdeal.Facts₀

/-- A sum of 256 terms is the sum of the first 128 plus the sum of the last 128. -/
theorem sum_halves {M : Type} [AddCommMonoid M] (f : Fin 256 → M) :
    ∑ k : Fin 256, f k
      = (∑ k : Fin 128, f ⟨k.val, by omega⟩) + ∑ k : Fin 128, f ⟨128 + k.val, by omega⟩ :=
  Fin.sum_univ_add (a := 128) (b := 128) f

/-- The reference's product of the joined rows with the weights, read at (n, o): the sum over the 256 joined columns. -/
theorem dot_nodes_apply (L : FVec Ideal S50000x256 .f32) (T : FVec Ideal S256x128 .f32) (i : S50000x128.Idx) :
    Host.dotGeneral dot_S50000x256_S256x128_S50000x128_1_0_0_1_n_n none L T i
      = ∑ k : Fin 256, L (lidx_main_v21 i k) * T (ridx_main_v21 i k) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx i
      ((contrEquiv1 dot_S50000x256_S256x128_S50000x128_1_0_0_1_n_n 256 rfl rfl).symm k) = lidx_main_v21 i k :=
    funext fun a => Fin.ext (by
      match a with
      | ⟨0, _⟩ => exact lhs_main_v21_0 _ _
      | ⟨1, _⟩ => exact (lhs_main_v21_1 _ _).trans hk)
  have er : dot_S50000x256_S256x128_S50000x128_1_0_0_1_n_n.rhsIdx i
      ((contrEquiv1 dot_S50000x256_S256x128_S50000x128_1_0_0_1_n_n 256 rfl rfl).symm k) = ridx_main_v21 i k :=
    funext fun a => Fin.ext (by
      match a with
      | ⟨0, _⟩ => exact (rhs_main_v21_0 _ _).trans hk
      | ⟨1, _⟩ => exact rhs_main_v21_1 _ _)
  rw [el, er]

/-- The reference's bias spread over the nodes, read at (n, o): entry o. -/
theorem biasNodes_apply (b : (⟨S128, .f32⟩ : BufTy).Contents (Elt Ideal)) (n : Fin 50000) (o : Fin 128) :
    val_main_v23 (F := Ideal) b (ix2 n o) = b (ix1 o) := by
  rw [val_main_v23_apply, val_main_v22_apply]
  refine congrArg b ?_
  funext a
  match a with
  | ⟨0, _⟩ => rfl

/-- The joined rows at a column of the first half: the features. -/
theorem joined_left (X A : FVec Ideal S50000x128 .f32) (n : Fin 50000) (k : Fin 128) :
    concatenate S50000x256 1 [⟨S50000x128, X⟩, ⟨S50000x128, A⟩] concatenates_S50000x128_S50000x128_S50000x256_d1
        (ix2 n (⟨k.val, by omega⟩ : Fin 256)) = X (ix2 n k) :=
  concatenate_pair_apply_left (1 : Fin S50000x256.rank) X A concatenates_S50000x128_S50000x128_S50000x256_d1
    (ix2 n (⟨k.val, by omega⟩ : Fin 256)) rfl (ix2 n k) (fun b => by
      match b with
      | ⟨0, _⟩ => rfl
      | ⟨1, _⟩ => rfl)

/-- The joined rows at a column of the second half: the aggregate. -/
theorem joined_right (X A : FVec Ideal S50000x128 .f32) (n : Fin 50000) (k : Fin 128) :
    concatenate S50000x256 1 [⟨S50000x128, X⟩, ⟨S50000x128, A⟩] concatenates_S50000x128_S50000x128_S50000x256_d1
        (ix2 n (⟨128 + k.val, by omega⟩ : Fin 256)) = A (ix2 n k) :=
  concatenate_pair_apply_right (1 : Fin S50000x256.rank) X A concatenates_S50000x128_S50000x128_S50000x256_d1
    (ix2 n (⟨128 + k.val, by omega⟩ : Fin 256)) rfl rfl (ix2 n k) (fun b hb => by
      match b with
      | ⟨0, _⟩ => rfl
      | ⟨1, _⟩ => exact absurd rfl hb)
    (by show k.val + 128 = 128 + k.val; omega)

/-- THE UPDATE: two half-products, or one product over the joined features. -/
theorem update_eq (X A : FVec Ideal S50000x128 .f32) (T : FVec Ideal S256x128 .f32)
    (b : (⟨S128, .f32⟩ : BufTy).Contents (Elt Ideal))
    (hb : (⟨1, ![128]⟩ : Shape).ShapeCasts ⟨2, ![1, 128]⟩)
    (h0 : (⟨2, ![256, 128]⟩ : Shape).Slices ![0, 0] ⟨2, ![128, 128]⟩)
    (h1 : (⟨2, ![256, 128]⟩ : Shape).Slices ![128, 0] ⟨2, ![128, 128]⟩) :
    (upd X A (extractStridedSlice (⟨2, ![128, 128]⟩ : Shape) ![0, 0] T h0)
        (extractStridedSlice (⟨2, ![128, 128]⟩ : Shape) ![128, 0] T h1)
        (shapeCast (⟨2, ![1, 128]⟩ : Shape) b hb) : FVec Ideal S50000x128 .f32)
      = maximumf (addf (Host.dotGeneral dot_S50000x256_S256x128_S50000x128_1_0_0_1_n_n none
            (concatenate S50000x256 1 [⟨S50000x128, X⟩, ⟨S50000x128, A⟩] concatenates_S50000x128_S50000x128_S50000x256_d1) T)
          (val_main_v23 (F := Ideal) b))
        (val_main_call0_v0 (F := Ideal)) := by
  funext i
  obtain ⟨n, o, rfl⟩ : ∃ (n : Fin 50000) (o : Fin 128), i = ix2 n o := ⟨i 0, i 1, eq_ix2 i⟩
  rw [upd_apply, maximumf_apply, addf_apply, dot_nodes_apply, biasNodes_apply, Mpnn.Msg.biasRow_apply, sum_halves]
  refine congrArg₂ max (congrArg (fun z => z + b (ix1 o)) (congrArg₂ (· + ·)
    (Finset.sum_congr rfl fun k _ => ?_) (Finset.sum_congr rfl fun k _ => ?_))) rfl
  · have hl : lidx_main_v21 (ix2 n o) (⟨k.val, by omega⟩ : Fin 256) = ix2 n (⟨k.val, by omega⟩ : Fin 256) :=
      funext fun a => by
        match a with
        | ⟨0, _⟩ => rfl
        | ⟨1, _⟩ => rfl
    have hr : ridx_main_v21 (ix2 n o) (⟨k.val, by omega⟩ : Fin 256) = ix2 (⟨k.val, by omega⟩ : Fin 256) o :=
      funext fun a => by
        match a with
        | ⟨0, _⟩ => rfl
        | ⟨1, _⟩ => rfl
    rw [hl, hr, joined_left,
      slice2_axis0_apply 0 T h0 k o (⟨k.val, by omega⟩ : Fin 256) (by show k.val = 0 + k.val; omega)]
  · have hl : lidx_main_v21 (ix2 n o) (⟨128 + k.val, by omega⟩ : Fin 256) = ix2 n (⟨128 + k.val, by omega⟩ : Fin 256) :=
      funext fun a => by
        match a with
        | ⟨0, _⟩ => rfl
        | ⟨1, _⟩ => rfl
    have hr : ridx_main_v21 (ix2 n o) (⟨128 + k.val, by omega⟩ : Fin 256) = ix2 (⟨128 + k.val, by omega⟩ : Fin 256) o :=
      funext fun a => by
        match a with
        | ⟨0, _⟩ => rfl
        | ⟨1, _⟩ => rfl
    rw [hl, hr, joined_right,
      slice2_axis0_apply 128 T h1 k o (⟨128 + k.val, by omega⟩ : Fin 256) rfl]

end Mpnn.Upd

end
-- ==== Proof.Boundary.lean ====
/-
  The idealized kernel's buffers at each segment boundary, named by the reference's own intermediate values.

  The program is six stretches of host operations around three launches. Walking the boundaries in order:
    after the first stretch the edge lists, the transposed message weights and the bias row are what the reference
      computes from the same arguments;
    the first launch leaves the message table, the affine image of the node features;
    the second stretch gathers it at the edges' sources and adds it up at their targets: by the row-gather law this is
      the reference's first aggregate;
    the second launch leaves the layer-1 features (by the half-products law, the reference's) and the next message table;
    the third stretch gives the reference's second aggregate, the third launch the reference's layer-2 features;
    the last three stretches pool, divide by the node counts and classify exactly as the reference does.
-/
import proofs.«159168_j72232759984910_2_alg».proof.Proof.Gen.KernelIdeal.Frame
import proofs.«159168_j72232759984910_2_alg».proof.Proof.Gen.ReferenceIdeal.Read
import proofs.«159168_j72232759984910_2_alg».proof.Proof.Region0
import proofs.«159168_j72232759984910_2_alg».proof.Proof.Region1
import proofs.«159168_j72232759984910_2_alg».proof.Proof.Region2
import proofs.«159168_j72232759984910_2_alg».proof.Proof.BridgeMsg
import proofs.«159168_j72232759984910_2_alg».proof.Proof.BridgeUpd
import Idealize.ShloMosaic.Lib.StableHlo.Run

set_option maxRecDepth 16384
set_option maxHeartbeats 4000000

noncomputable section

namespace Cert.KernelIdeal.KVal

open Cert.KernelIdeal Cert.KernelIdeal.Gen Mpnn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_v1 (c : Dev nD) : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results
  rfl

theorem W1_v3 (c : Dev nD) : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results
  rfl

theorem W1_v4 (c : Dev nD) : W1 m ρ c (Proc.devRef .tc main_v4) = (Cert.ReferenceIdeal.Read.val_main_v11 (F := Ideal) (m ((c : Thread nD τ).loc main_arg3))) := by
  show StableHlo.after hostOps0 (W0 m ρ c) (Proc.devRef .tc main_v4) = _
  after_results
  rfl

theorem W1_v5 (c : Dev nD) : W1 m ρ c (Proc.devRef .tc main_v5) = (shapeCast (⟨2, ![1, 128]⟩ : Shape) (m ((c : Thread nD τ).loc main_arg4)) Cert.KernelIdeal.Facts₀.shapeCasts_S128_S1x128) := by
  show StableHlo.after hostOps0 (W0 m ρ c) (Proc.devRef .tc main_v5) = _
  after_results
  rfl

/-! ## After the message launch -/

theorem W2_v6 (c : Dev nD) : W2 m ρ c (Proc.devRef .tc main_v6) = lin (m ((c : Thread nD τ).loc main_arg0)) (Cert.ReferenceIdeal.Read.val_main_v11 (F := Ideal) (m ((c : Thread nD τ).loc main_arg3))) (shapeCast (⟨2, ![1, 128]⟩ : Shape) (m ((c : Thread nD τ).loc main_arg4)) Cert.KernelIdeal.Facts₀.shapeCasts_S128_S1x128) := by
  refine (W2_arr m ρ c 3).trans ((Reg0.final3 (V1 m ρ) c).trans ?_)
  show lin (W1 m ρ c (Proc.devRef .tc main_arg0)) (W1 m ρ c (Proc.devRef .tc main_v4)) (W1 m ρ c (Proc.devRef .tc main_v5)) = _
  rw [W1_arg0 m ρ c, W1_v4 m ρ c, W1_v5 m ρ c]

theorem W2_v1 (c : Dev nD) : W2 m ρ c (Proc.devRef .tc main_v1) = (Cert.ReferenceIdeal.Read.val_main_v1 (F := Ideal) (m ((c : Thread nD τ).loc main_arg1))) :=
  (W2_of_ne m ρ c main_v1 (by decide)).trans (W1_v1 m ρ c)
theorem W2_v3 (c : Dev nD) : W2 m ρ c (Proc.devRef .tc main_v3) = (Cert.ReferenceIdeal.Read.val_main_v3 (F := Ideal) (m ((c : Thread nD τ).loc main_arg1))) :=
  (W2_of_ne m ρ c main_v3 (by decide)).trans (W1_v3 m ρ c)
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## After the second stretch -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_v1 (c : Dev nD) : W3 m ρ c (Proc.devRef .tc main_v1) = (Cert.ReferenceIdeal.Read.val_main_v1 (F := Ideal) (m ((c : Thread nD τ).loc main_arg1))) := by
  show StableHlo.after hostOps1 (W2 m ρ c) (Proc.devRef .tc main_v1) = _
  after_results_simp
  exact W2_v1 m ρ c

theorem W3_v3 (c : Dev nD) : W3 m ρ c (Proc.devRef .tc main_v3) = (Cert.ReferenceIdeal.Read.val_main_v3 (F := Ideal) (m ((c : Thread nD τ).loc main_arg1))) := by
  show StableHlo.after hostOps1 (W2 m ρ c) (Proc.devRef .tc main_v3) = _
  after_results_simp
  exact W2_v3 m ρ c

/-- The first aggregate: the gathered message table summed at the edges' targets is the reference's. -/
theorem W3_v17 (c : Dev nD) : W3 m ρ c (Proc.devRef .tc main_v17) = (Cert.ReferenceIdeal.Read.val_main_v18 (F := Ideal) (m ((c : Thread nD τ).loc main_arg0)) (m ((c : Thread nD τ).loc main_arg1)) (m ((c : Thread nD τ).loc main_arg3)) (m ((c : Thread nD τ).loc main_arg4))) := by
  show StableHlo.after hostOps1 (W2 m ρ c) (Proc.devRef .tc main_v17) = _
  after_results_simp
  rw [W2_v1 m ρ c, W2_v3 m ρ c, W2_v6 m ρ c]
  rw [Mpnn.Msg.gathered_table_eq (m ((c : Thread nD τ).loc main_arg0)) (Cert.ReferenceIdeal.Read.val_main_v11 (F := Ideal) (m ((c : Thread nD τ).loc main_arg3))) (m ((c : Thread nD τ).loc main_arg4)) Cert.KernelIdeal.Facts₀.shapeCasts_S128_S1x128 Cert.KernelIdeal.Facts₀.bitsLt_bf16_f32 _]
  rfl

theorem W3_v19 (c : Dev nD) : W3 m ρ c (Proc.devRef .tc main_v19) = extractStridedSlice (⟨2, ![128, 128]⟩ : Shape) ![0, 0] (Cert.ReferenceIdeal.Read.val_main_v20 (F := Ideal) (m ((c : Thread nD τ).loc main_arg5))) Cert.KernelIdeal.Facts₀.slices_S256x128_S128x128_0_0 := by
  show StableHlo.after hostOps1 (W2 m ρ c) (Proc.devRef .tc main_v19) = _
  after_results_simp
  rw [W2_arg5 m ρ c]
  rfl

theorem W3_v20 (c : Dev nD) : W3 m ρ c (Proc.devRef .tc main_v20) = extractStridedSlice (⟨2, ![128, 128]⟩ : Shape) ![128, 0] (Cert.ReferenceIdeal.Read.val_main_v20 (F := Ideal) (m ((c : Thread nD τ).loc main_arg5))) Cert.KernelIdeal.Facts₀.slices_S256x128_S128x128_128_0 := by
  show StableHlo.after hostOps1 (W2 m ρ c) (Proc.devRef .tc main_v20) = _
  after_results_simp
  rw [W2_arg5 m ρ c]
  rfl

theorem W3_v21 (c : Dev nD) : W3 m ρ c (Proc.devRef .tc main_v21) = (Cert.ReferenceIdeal.Read.val_main_v33 (F := Ideal) (m ((c : Thread nD τ).loc main_arg7))) := by
  show StableHlo.after hostOps1 (W2 m ρ c) (Proc.devRef .tc main_v21) = _
  after_results_simp
  rw [W2_arg7 m ρ c]
  rfl

theorem W3_v22 (c : Dev nD) : W3 m ρ c (Proc.devRef .tc main_v22) = (shapeCast (⟨2, ![1, 128]⟩ : Shape) (m ((c : Thread nD τ).loc main_arg6)) Cert.KernelIdeal.Facts₀.shapeCasts_S128_S1x128) := by
  show StableHlo.after hostOps1 (W2 m ρ c) (Proc.devRef .tc main_v22) = _
  after_results_simp
  rw [W2_arg6 m ρ c]
  rfl

theorem W3_v23 (c : Dev nD) : W3 m ρ c (Proc.devRef .tc main_v23) = (shapeCast (⟨2, ![1, 128]⟩ : Shape) (m ((c : Thread nD τ).loc main_arg8)) Cert.KernelIdeal.Facts₀.shapeCasts_S128_S1x128) := by
  show StableHlo.after hostOps1 (W2 m ρ c) (Proc.devRef .tc main_v23) = _
  after_results_simp
  rw [W2_arg8 m ρ c]
  rfl

/-! ## After the fused launch -/

/-- The layer-1 features are the reference's. -/
theorem W4_v24_0 (c : Dev nD) : W4 m ρ c (Proc.devRef .tc main_v24_0) = (Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W4_arr m ρ c 7).trans ((Reg1.final7 (V3 m ρ) c).trans ?_)
  show upd (W3 m ρ c (Proc.devRef .tc main_arg0)) (W3 m ρ c (Proc.devRef .tc main_v17)) (W3 m ρ c (Proc.devRef .tc main_v19))
    (W3 m ρ c (Proc.devRef .tc main_v20)) (W3 m ρ c (Proc.devRef .tc main_v22)) = _
  rw [W3_arg0 m ρ c, W3_v17 m ρ c, W3_v19 m ρ c, W3_v20 m ρ c, W3_v22 m ρ c]
  exact Mpnn.Upd.update_eq (m ((c : Thread nD τ).loc main_arg0)) (Cert.ReferenceIdeal.Read.val_main_v18 (F := Ideal) (m ((c : Thread nD τ).loc main_arg0)) (m ((c : Thread nD τ).loc main_arg1)) (m ((c : Thread nD τ).loc main_arg3)) (m ((c : Thread nD τ).loc main_arg4))) (Cert.ReferenceIdeal.Read.val_main_v20 (F := Ideal) (m ((c : Thread nD τ).loc main_arg5))) (m ((c : Thread nD τ).loc main_arg6))
    Cert.KernelIdeal.Facts₀.shapeCasts_S128_S1x128 Cert.KernelIdeal.Facts₀.slices_S256x128_S128x128_0_0 Cert.KernelIdeal.Facts₀.slices_S256x128_S128x128_128_0

/-- The next message table is the affine image of the layer-1 features. -/
theorem W4_v24_1 (c : Dev nD) : W4 m ρ c (Proc.devRef .tc main_v24_1) = lin (Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.Read.val_main_v33 (F := Ideal) (m ((c : Thread nD τ).loc main_arg7))) (shapeCast (⟨2, ![1, 128]⟩ : Shape) (m ((c : Thread nD τ).loc main_arg8)) Cert.KernelIdeal.Facts₀.shapeCasts_S128_S1x128) := by
  refine (W4_arr m ρ c 8).trans ((Reg1.final8 (V3 m ρ) c).trans ?_)
  show lin (upd (W3 m ρ c (Proc.devRef .tc main_arg0)) (W3 m ρ c (Proc.devRef .tc main_v17)) (W3 m ρ c (Proc.devRef .tc main_v19))
    (W3 m ρ c (Proc.devRef .tc main_v20)) (W3 m ρ c (Proc.devRef .tc main_v22))) (W3 m ρ c (Proc.devRef .tc main_v21)) (W3 m ρ c (Proc.devRef .tc main_v23)) = _
  rw [W3_arg0 m ρ c, W3_v17 m ρ c, W3_v19 m ρ c, W3_v20 m ρ c, W3_v22 m ρ c, W3_v21 m ρ c, W3_v23 m ρ c]
  exact congrArg (fun u => lin u (Cert.ReferenceIdeal.Read.val_main_v33 (F := Ideal) (m ((c : Thread nD τ).loc main_arg7))) (shapeCast (⟨2, ![1, 128]⟩ : Shape) (m ((c : Thread nD τ).loc main_arg8)) Cert.KernelIdeal.Facts₀.shapeCasts_S128_S1x128))
    (Mpnn.Upd.update_eq (m ((c : Thread nD τ).loc main_arg0)) (Cert.ReferenceIdeal.Read.val_main_v18 (F := Ideal) (m ((c : Thread nD τ).loc main_arg0)) (m ((c : Thread nD τ).loc main_arg1)) (m ((c : Thread nD τ).loc main_arg3)) (m ((c : Thread nD τ).loc main_arg4))) (Cert.ReferenceIdeal.Read.val_main_v20 (F := Ideal) (m ((c : Thread nD τ).loc main_arg5))) (m ((c : Thread nD τ).loc main_arg6))
      Cert.KernelIdeal.Facts₀.shapeCasts_S128_S1x128 Cert.KernelIdeal.Facts₀.slices_S256x128_S128x128_0_0 Cert.KernelIdeal.Facts₀.slices_S256x128_S128x128_128_0)

theorem W4_v1 (c : Dev nD) : W4 m ρ c (Proc.devRef .tc main_v1) = (Cert.ReferenceIdeal.Read.val_main_v1 (F := Ideal) (m ((c : Thread nD τ).loc main_arg1))) :=
  (W4_of_ne m ρ c main_v1 (by decide)).trans (W3_v1 m ρ c)
theorem W4_v3 (c : Dev nD) : W4 m ρ c (Proc.devRef .tc main_v3) = (Cert.ReferenceIdeal.Read.val_main_v3 (F := Ideal) (m ((c : Thread nD τ).loc main_arg1))) :=
  (W4_of_ne m ρ c main_v3 (by decide)).trans (W3_v3 m ρ c)
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-! ## After the third stretch -/

theorem W5_v24_0 (c : Dev nD) : W5 m ρ c (Proc.devRef .tc main_v24_0) = (Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v24_0) = _
  after_results_simp
  exact W4_v24_0 m ρ c

/-- The second aggregate is the reference's. -/
theorem W5_v35 (c : Dev nD) : W5 m ρ c (Proc.devRef .tc main_v35) = (Cert.ReferenceIdeal.Read.val_main_v40 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v35) = _
  after_results_simp
  rw [W4_v1 m ρ c, W4_v3 m ρ c, W4_v24_1 m ρ c]
  rw [Mpnn.Msg.gathered_table_eq (Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.Read.val_main_v33 (F := Ideal) (m ((c : Thread nD τ).loc main_arg7))) (m ((c : Thread nD τ).loc main_arg8)) Cert.KernelIdeal.Facts₀.shapeCasts_S128_S1x128 Cert.KernelIdeal.Facts₀.bitsLt_bf16_f32 _]
  rfl

theorem W5_v37 (c : Dev nD) : W5 m ρ c (Proc.devRef .tc main_v37) = extractStridedSlice (⟨2, ![128, 128]⟩ : Shape) ![0, 0] (Cert.ReferenceIdeal.Read.val_main_v42 (F := Ideal) (m ((c : Thread nD τ).loc main_arg9))) Cert.KernelIdeal.Facts₀.slices_S256x128_S128x128_0_0 := by
  show StableHlo.after hostOps2 (W4 m ρ c) (Proc.devRef .tc main_v37) = _
  after_results_simp
  rw [W4_arg9 m ρ c]
  rfl

theorem W5_v38 (c : Dev nD) : W5 m ρ c (Proc.devRef .tc main_v38) = extractStridedSlice (⟨2, ![128, 128]⟩ : Shape) ![128, 0] (Cert.ReferenceIdeal.Read.val_main_v42 (F := Ideal) (m ((c : Thread nD τ).loc main_arg9))) Cert.KernelIdeal.Facts₀.slices_S256x128_S128x128_128_0 := by
  show StableHlo.after hostOps2 (W4 m ρ c) (Proc.devRef .tc main_v38) = _
  after_results_simp
  rw [W4_arg9 m ρ c]
  rfl

theorem W5_v39 (c : Dev nD) : W5 m ρ c (Proc.devRef .tc main_v39) = (shapeCast (⟨2, ![1, 128]⟩ : Shape) (m ((c : Thread nD τ).loc main_arg10)) Cert.KernelIdeal.Facts₀.shapeCasts_S128_S1x128) := by
  show StableHlo.after hostOps2 (W4 m ρ c) (Proc.devRef .tc main_v39) = _
  after_results_simp
  rw [W4_arg10 m ρ c]
  rfl

/-! ## After the last launch -/

/-- The layer-2 features are the reference's. -/
theorem W6_v40 (c : Dev nD) : W6 m ρ c (Proc.devRef .tc main_v40) = (Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W6_arr m ρ c 5).trans ((Reg2.final5 (V5 m ρ) c).trans ?_)
  show upd (W5 m ρ c (Proc.devRef .tc main_v24_0)) (W5 m ρ c (Proc.devRef .tc main_v35)) (W5 m ρ c (Proc.devRef .tc main_v37))
    (W5 m ρ c (Proc.devRef .tc main_v38)) (W5 m ρ c (Proc.devRef .tc main_v39)) = _
  rw [W5_v24_0 m ρ c, W5_v35 m ρ c, W5_v37 m ρ c, W5_v38 m ρ c, W5_v39 m ρ c]
  exact Mpnn.Upd.update_eq (Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.Read.val_main_v40 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.ReferenceIdeal.Read.val_main_v42 (F := Ideal) (m ((c : Thread nD τ).loc main_arg9))) (m ((c : Thread nD τ).loc main_arg10))
    Cert.KernelIdeal.Facts₀.shapeCasts_S128_S1x128 Cert.KernelIdeal.Facts₀.slices_S256x128_S128x128_0_0 Cert.KernelIdeal.Facts₀.slices_S256x128_S128x128_128_0

theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-! ## At the return -/

/-- THE RESULT: pooled, divided by the node counts and classified as the reference does, from the same layer-2 features. -/
theorem W9_v62 (c : Dev nD) : W9 m ρ c (Proc.devRef .tc main_v62) = (Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps3_2 (StableHlo.after hostOps3_1 (StableHlo.after hostOps3 (W6 m ρ c))) (Proc.devRef .tc main_v62) = _
  after_results_simp
  rw [W6_v40 m ρ c, W6_arg2 m ρ c, W6_arg11 m ρ c, W6_arg12 m ρ c]
  rfl

end Cert.KernelIdeal.KVal

end
-- ==== Proof.lean ====
/-
  A two-layer message-passing network on 50000 nodes and 800000 edges, pooled per graph and classified: the kernel
  program against the plain reference, as functions of the thirteen argument arrays over the extended reals.

  Both programs compute, per layer, messages (an affine map of each source node's features), their sums at the target
  nodes, and the update  max (W_u . [x, aggregate] + b_u) 0;  then the per-graph sums of the final features divided by the
  node counts, and an affine classifier. They differ in two places only.
    The kernel applies the message map to all nodes first and gathers the resulting table at the edges; the reference
      gathers the features and applies the map edge by edge. A gather of whole rows commutes with a map acting row by
      row (Proof/LibRowGather.lean, Proof/BridgeMsg.lean).
    The kernel multiplies the features and the aggregate by the two halves of the update weights and adds; the
      reference multiplies their concatenation by the whole. A sum over 256 terms is regrouped into two sums of 128
      (Proof/BridgeUpd.lean).
  Neither step needs the inputs to be finite: only the order and grouping of additions change.

  The kernel program's three launches are read as whole-array functions in Proof/Region0.lean .. Region2.lean (each of 25
  grid points handles 2000 consecutive node rows), its buffers at the boundaries between launches and host operations
  are identified with the reference's intermediate values in Proof/Boundary.lean, and its run with the result named is
  Proof/KernelRun.lean. The reference's run and its operations read one at a time are the generated modules imported below.
  The idealization rewrote no operation, so the preservation claim is trivial.
-/
import proofs.«159168_j72232759984910_2_alg».proof.Defs
import proofs.«159168_j72232759984910_2_alg».proof.Proof.Gen.Kernel
import proofs.«159168_j72232759984910_2_alg».proof.Proof.Gen.Kernel.Skeleton
import proofs.«159168_j72232759984910_2_alg».proof.Proof.Gen.Kernel.Launch
import proofs.«159168_j72232759984910_2_alg».proof.Proof.Gen.Kernel.Points
import proofs.«159168_j72232759984910_2_alg».proof.Proof.Gen.Kernel.Frame
import proofs.«159168_j72232759984910_2_alg».proof.Proof.Gen.KernelIdeal
import proofs.«159168_j72232759984910_2_alg».proof.Proof.Gen.KernelIdeal.Skeleton
import proofs.«159168_j72232759984910_2_alg».proof.Proof.Gen.KernelIdeal.Launch
import proofs.«159168_j72232759984910_2_alg».proof.Proof.Gen.KernelIdeal.Points
import proofs.«159168_j72232759984910_2_alg».proof.Proof.Gen.KernelIdeal.Frame
import proofs.«159168_j72232759984910_2_alg».proof.Proof.Gen.ReferenceIdeal
import proofs.«159168_j72232759984910_2_alg».proof.Proof.Gen.ReferenceIdeal.Run
import proofs.«159168_j72232759984910_2_alg».proof.Proof.Gen.ReferenceIdeal.Read
import proofs.«159168_j72232759984910_2_alg».proof.Proof.Gen.Pre_finite_inputs
import proofs.«159168_j72232759984910_2_alg».proof.Proof.KernelRun
import proofs.«159168_j72232759984910_2_alg».proof.Proof.Boundary
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- So does the reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the same 64 by 10 scores: the kernel's result is the
    last boundary's contents, which Proof/Boundary.lean shows to be the reference's composed value of the same arguments. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Gen.W9 m ρ c (Proc.devRef .tc Cert.KernelIdeal.main_v62),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  have e := Cert.KernelIdeal.KVal.W9_v62 m ρ c
  obtain ⟨h0, h1, h2, h3, h4, h5, h6, h7, h8, h9, h10, h11, h12⟩ := hagree c
  rw [Cert.ReferenceIdeal.Read.val_main_v69_eq, h0, h1, h2, h3, h4, h5, h6, h7, h8, h9, h10, h11, h12]
  exact e.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
